-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S100000x64 .f32) (main_arg1 : IVec S2x1250000 32) (main_arg2 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S100000x64 : Shape := ⟨2, ![100000, 64]⟩
abbrev S2x1250000 : Shape := ⟨2, ![2, 1250000]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1 : Shape := ⟨1, ![1]⟩
abbrev S1x1 : Shape := ⟨2, ![1, 1]⟩
abbrev S1250000x64 : Shape := ⟨2, ![1250000, 64]⟩
abbrev S10000x64 : Shape := ⟨2, ![10000, 64]⟩
abbrev S10000x1 : Shape := ⟨2, ![10000, 1]⟩

abbrev nBuf : Space → Nat
  | .hbm => 93
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S2, .f32⟩
  | .hbm, ⟨3, _⟩ => ⟨S1x1250000, .i32⟩
  | .hbm, ⟨4, _⟩ => ⟨S1250000, .i32⟩
  | .hbm, ⟨5, _⟩ => ⟨S1x1250000, .i32⟩
  | .hbm, ⟨6, _⟩ => ⟨S1250000, .i32⟩
  | .hbm, ⟨7, _⟩ => ⟨S_, .f32⟩
  | .hbm, ⟨8, _⟩ => ⟨S1250000, .f32⟩
  | .hbm, ⟨9, _⟩ => ⟨S_, .f32⟩
  | .hbm, ⟨10, _⟩ => ⟨S100000, .f32⟩
  | .hbm, ⟨11, _⟩ => ⟨S1250000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000, .f32⟩
  | .hbm, ⟨33, _⟩ => ⟨S_, .i32⟩
  | .hbm, ⟨34, _⟩ => ⟨S1250000, .i32⟩
  | .hbm, ⟨35, _⟩ => ⟨S1250000, .i1⟩
  | .hbm, ⟨36, _⟩ => ⟨S_, .i32⟩
  | .hbm, ⟨37, _⟩ => ⟨S1250000, .i32⟩
  | .hbm, ⟨38, _⟩ => ⟨S1250000, .i32⟩
  | .hbm, ⟨39, _⟩ => ⟨S1250000, .i32⟩
  | .hbm, ⟨40, _⟩ => ⟨S1250000x1, .i32⟩
  | .hbm, ⟨41, _⟩ => ⟨S1250000, .f32⟩
  | .hbm, ⟨42, _⟩ => ⟨S1250000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S2, .f32⟩
  | .hbm, ⟨49, _⟩ => ⟨S2, .f32⟩
  | .hbm, ⟨50, _⟩ => ⟨S2, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S2, .f32⟩
  | .hbm, ⟨55, _⟩ => ⟨S2, .f32⟩
  | .hbm, ⟨56, _⟩ => ⟨S_, .f32⟩
  | .hbm, ⟨57, _⟩ => ⟨S_, .f32⟩
  | .hbm, ⟨58, _⟩ => ⟨S1x1, .f32⟩
  | .hbm, ⟨59, _⟩ => ⟨S_, .f32⟩
  | .hbm, ⟨60, _⟩ => ⟨S1x1, .f32⟩
  | .hbm, ⟨61, _⟩ => ⟨S_, .i32⟩
  | .hbm, ⟨62, _⟩ => ⟨S1250000, .i32⟩
  | .hbm, ⟨63, _⟩ => ⟨S1250000, .i1⟩
  | .hbm, ⟨64, _⟩ => ⟨S_, .i32⟩
  | .hbm, ⟨65, _⟩ => ⟨S1250000, .i32⟩
  | .hbm, ⟨66, _⟩ => ⟨S1250000, .i32⟩
  | .hbm, ⟨67, _⟩ => ⟨S1250000, .i32⟩
  | .hbm, ⟨68, _⟩ => ⟨S1250000x1, .i32⟩
  | .hbm, ⟨69, _⟩ => ⟨S1250000x64, .f32⟩
  | .hbm, ⟨70, _⟩ => ⟨S1250000x1, .f32⟩
  | .hbm, ⟨71, _⟩ => ⟨S1250000x64, .f32⟩
  | .hbm, ⟨72, _⟩ => ⟨S_, .f32⟩
  | .hbm, ⟨73, _⟩ => ⟨S100000x64, .f32⟩
  | .hbm, ⟨74, _⟩ => ⟨S1250000x1, .i32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1250000, .i32⟩
  | .hbm, ⟨79, _⟩ => ⟨S1250000, .i1⟩
  | .hbm, ⟨80, _⟩ => ⟨S_, .i32⟩
  | .hbm, ⟨81, _⟩ => ⟨S1250000, .i32⟩
  | .hbm, ⟨82, _⟩ => ⟨S1250000, .i32⟩
  | .hbm, ⟨83, _⟩ => ⟨S1250000, .i32⟩
  | .hbm, ⟨84, _⟩ => ⟨S1250000x1, .i32⟩
  | .hbm, ⟨85, _⟩ => ⟨S1250000x64, .f32⟩
  | .hbm, ⟨86, _⟩ => ⟨S1250000x1, .f32⟩
  | .hbm, ⟨87, _⟩ => ⟨S1250000x64, .f32⟩
  | .hbm, ⟨88, _⟩ => ⟨S_, .f32⟩
  | .hbm, ⟨89, _⟩ => ⟨S100000x64, .f32⟩
  | .hbm, ⟨90, _⟩ => ⟨S1250000x1, .i32⟩
  | .hbm, ⟨91, _⟩ => ⟨S100000x64, .f32⟩
  | .hbm, ⟨92, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x1, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S1x1, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_c_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_15 : Ref sig .tc := ⟨.hbm, 77, rfl⟩
abbrev main_v55 : Ref sig .tc := ⟨.hbm, 78, rfl⟩
abbrev main_v56 : Ref sig .tc := ⟨.hbm, 79, rfl⟩
abbrev main_c_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  shapeCasts_S_S1x1 : S_.ShapeCasts S1x1
  bcast_S_S1x1 : S_.BroadcastsInDim S1x1 (![] : Fin 0 → Fin S1x1.rank)
  shapeCasts_S1250000_S1250000x1 : S1250000.ShapeCasts S1250000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1250000x1.size a
  hwx0_1 : ∀ i : grid0.Coords, EltTy.bits .f32 = 32 ∨ (Rect.block (s := S1250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .f32 = 32 ∨ (Rect.block (s := S1250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1250000x1.size a
  hwx2_1 : ∀ i : grid2.Coords, EltTy.bits .f32 = 32 ∨ (Rect.block (s := S1250000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1250000x64.size a
  hwx2_2 : ∀ i : grid2.Coords, EltTy.bits .f32 = 32 ∨ (Rect.block (s := S1250000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_v48) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S1 : Shape := ⟨1, ![1]⟩

abbrev nBuf : Space → Nat
  | .hbm => 268
  | .vmem => 0
  | .smem => 0
  | _ => 0

abbrev hbmTy0_0 (i : Nat) : BufTy := match i % 128 with
  | 0 => ⟨S100000x64, .f32⟩
  | 1 => ⟨S2x1250000, .i32⟩
  | 2 => ⟨S2, .f32⟩
  | 3 => ⟨S1x1250000, .i32⟩
  | 4 => ⟨S1250000, .i32⟩
  | 5 => ⟨S1x1250000, .i32⟩
  | 6 => ⟨S1250000, .i32⟩
  | 7 => ⟨S_, .f32⟩
  | 8 => ⟨S1250000, .f32⟩
  | 9 => ⟨S_, .f32⟩
  | 10 => ⟨S100000, .f32⟩
  | 11 => ⟨S1250000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1250000, .i32⟩
  | 26 => ⟨S1250000, .i1⟩
  | 27 => ⟨S_, .i32⟩
  | 28 => ⟨S1250000, .i32⟩
  | 29 => ⟨S1250000, .i32⟩
  | 30 => ⟨S1250000, .i32⟩
  | 31 => ⟨S1250000x1, .i32⟩
  | 32 => ⟨S1250000, .f32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1250000, .f32⟩
  | 42 => ⟨S1250000, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000x64, .f32⟩
  | 52 => ⟨S1250000x1, .f32⟩
  | 53 => ⟨S1250000x64, .f32⟩
  | 54 => ⟨S1250000x64, .f32⟩
  | 55 => ⟨S_, .f32⟩
  | 56 => ⟨S100000x64, .f32⟩
  | 57 => ⟨S1250000x1, .i32⟩
  | 58 => ⟨S100000x64, .f32⟩
  | 59 => ⟨S_, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S1250000, .f32⟩
  | 68 => ⟨S_, .f32⟩
  | 69 => ⟨S100000, .f32⟩
  | 70 => ⟨S1250000x1, .i32⟩
  | 71 => ⟨S100000, .f32⟩
  | 72 => ⟨S_, .f32⟩
  | 73 => ⟨S100000, .f32⟩
  | 74 => ⟨S100000, .i1⟩
  | 75 => ⟨S_, .f32⟩
  | 76 => ⟨S100000, .f32⟩
  | 77 => ⟨S100000, .f32⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1250000, .i32⟩
  | 85 => ⟨S1250000, .i1⟩
  | 86 => ⟨S_, .i32⟩
  | 87 => ⟨S1250000, .i32⟩
  | 88 => ⟨S1250000, .i32⟩
  | 89 => ⟨S1250000, .i32⟩
  | 90 => ⟨S1250000x1, .i32⟩
  | 91 => ⟨S1250000, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000, .f32⟩
  | 101 => ⟨S1250000, .f32⟩
  | 102 => ⟨S_, .i32⟩
  | 103 => ⟨S1250000, .i32⟩
  | 104 => ⟨S1250000, .i1⟩
  | 105 => ⟨S_, .i32⟩
  | 106 => ⟨S1250000, .i32⟩
  | 107 => ⟨S1250000, .i32⟩
  | 108 => ⟨S1250000, .i32⟩
  | 109 => ⟨S1250000x1, .i32⟩
  | 110 => ⟨S1250000x64, .f32⟩
  | 111 => ⟨S1250000x1, .f32⟩
  | 112 => ⟨S1250000x64, .f32⟩
  | 113 => ⟨S1250000x64, .f32⟩
  | 114 => ⟨S_, .f32⟩
  | 115 => ⟨S100000x64, .f32⟩
  | 116 => ⟨S1250000x1, .i32⟩
  | 117 => ⟨S100000x64, .f32⟩
  | 118 => ⟨S_, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S_, .f32⟩
  | 126 => ⟨S1250000, .f32⟩
  | 127 => ⟨S_, .f32⟩
  | _ => ⟨S100000x64, .f32⟩

abbrev hbmTy0_1 (i : Nat) : BufTy := match i % 128 with
  | 0 => ⟨S100000, .f32⟩
  | 1 => ⟨S1250000x1, .i32⟩
  | 2 => ⟨S100000, .f32⟩
  | 3 => ⟨S_, .f32⟩
  | 4 => ⟨S100000, .f32⟩
  | 5 => ⟨S100000, .i1⟩
  | 6 => ⟨S_, .f32⟩
  | 7 => ⟨S100000, .f32⟩
  | 8 => ⟨S100000, .f32⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000, .f32⟩
  | 23 => ⟨S_, .i32⟩
  | 24 => ⟨S1250000, .i32⟩
  | 25 => ⟨S1250000, .i1⟩
  | 26 => ⟨S_, .i32⟩
  | 27 => ⟨S1250000, .i32⟩
  | 28 => ⟨S1250000, .i32⟩
  | 29 => ⟨S1250000, .i32⟩
  | 30 => ⟨S1250000x1, .i32⟩
  | 31 => ⟨S1250000, .f32⟩
  | 32 => ⟨S1250000, .f32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1250000x64, .f32⟩
  | 42 => ⟨S1250000x1, .f32⟩
  | 43 => ⟨S1250000x64, .f32⟩
  | 44 => ⟨S1250000x64, .f32⟩
  | 45 => ⟨S_, .f32⟩
  | 46 => ⟨S100000x64, .f32⟩
  | 47 => ⟨S1250000x1, .i32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S_, .f32⟩
  | 57 => ⟨S1250000, .f32⟩
  | 58 => ⟨S_, .f32⟩
  | 59 => ⟨S100000, .f32⟩
  | 60 => ⟨S1250000x1, .i32⟩
  | 61 => ⟨S100000, .f32⟩
  | 62 => ⟨S_, .f32⟩
  | 63 => ⟨S100000, .f32⟩
  | 64 => ⟨S100000, .i1⟩
  | 65 => ⟨S_, .f32⟩
  | 66 => ⟨S100000, .f32⟩
  | 67 => ⟨S100000, .f32⟩
  | 68 => ⟨S100000, .f32⟩
  | 69 => ⟨S_, .f32⟩
  | 70 => ⟨S_, .f32⟩
  | 71 => ⟨S100000, .f32⟩
  | 72 => ⟨S100000, .f32⟩
  | 73 => ⟨S_, .i32⟩
  | 74 => ⟨S1250000, .i32⟩
  | 75 => ⟨S1250000, .i1⟩
  | 76 => ⟨S_, .i32⟩
  | 77 => ⟨S1250000, .i32⟩
  | 78 => ⟨S1250000, .i32⟩
  | 79 => ⟨S1250000, .i32⟩
  | 80 => ⟨S1250000x1, .i32⟩
  | 81 => ⟨S1250000, .f32⟩
  | 82 => ⟨S_, .i32⟩
  | 83 => ⟨S1250000, .i32⟩
  | 84 => ⟨S1250000, .i1⟩
  | 85 => ⟨S_, .i32⟩
  | 86 => ⟨S1250000, .i32⟩
  | 87 => ⟨S1250000, .i32⟩
  | 88 => ⟨S1250000, .i32⟩
  | 89 => ⟨S1250000x1, .i32⟩
  | 90 => ⟨S1250000, .f32⟩
  | 91 => ⟨S1250000, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000x64, .f32⟩
  | 101 => ⟨S1250000x1, .f32⟩
  | 102 => ⟨S1250000x64, .f32⟩
  | 103 => ⟨S1250000x64, .f32⟩
  | 104 => ⟨S_, .f32⟩
  | 105 => ⟨S100000x64, .f32⟩
  | 106 => ⟨S1250000x1, .i32⟩
  | 107 => ⟨S100000x64, .f32⟩
  | 108 => ⟨S_, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S_, .f32⟩
  | 116 => ⟨S_, .f32⟩
  | 117 => ⟨S_, .f32⟩
  | 118 => ⟨S_, .f32⟩
  | 119 => ⟨S1, .f32⟩
  | 120 => ⟨S2, .f32⟩
  | 121 => ⟨S2, .f32⟩
  | 122 => ⟨S2, .f32⟩
  | 123 => ⟨S_, .f32⟩
  | 124 => ⟨S_, .f32⟩
  | 125 => ⟨S1, .f32⟩
  | 126 => ⟨S2, .f32⟩
  | 127 => ⟨S2, .f32⟩
  | _ => ⟨S100000x64, .f32⟩

abbrev hbmTy0_2 (i : Nat) : BufTy := match i % 128 with
  | 0 => ⟨S_, .f32⟩
  | 1 => ⟨S100000x64, .f32⟩
  | 2 => ⟨S1, .f32⟩
  | 3 => ⟨S_, .f32⟩
  | 4 => ⟨S1, .f32⟩
  | 5 => ⟨S_, .f32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_call1_v0 : Ref sig .tc := ⟨.hbm, 80, rfl⟩
abbrev main_call1_v1 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_19 : Ref sig .tc := ⟨.hbm, 92, rfl⟩
abbrev main_v64 : Ref sig .tc := ⟨.hbm, 93, rfl⟩
abbrev main_v65 : Ref sig .tc := ⟨.hbm, 94, rfl⟩
abbrev main_c_20 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_21 : Ref sig .tc := ⟨.hbm, 102, rfl⟩
abbrev main_v72 : Ref sig .tc := ⟨.hbm, 103, rfl⟩
abbrev main_v73 : Ref sig .tc := ⟨.hbm, 104, rfl⟩
abbrev main_c_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_cst_25 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_cst_27 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_28 : Ref sig .tc := ⟨.hbm, 131, rfl⟩
abbrev main_v94 : Ref sig .tc := ⟨.hbm, 132, rfl⟩
abbrev main_v95 : Ref sig .tc := ⟨.hbm, 133, rfl⟩
abbrev main_cst_29 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_30 : Ref sig .tc := ⟨.hbm, 138, rfl⟩
abbrev main_call2_v0 : Ref sig .tc := ⟨.hbm, 139, rfl⟩
abbrev main_call2_v1 : Ref sig .tc := ⟨.hbm, 140, rfl⟩
abbrev main_v99 : Ref sig .tc := ⟨.hbm, 141, rfl⟩
abbrev main_c_31 : Ref sig .tc := ⟨.hbm, 142, rfl⟩
abbrev main_v100 : Ref sig .tc := ⟨.hbm, 143, rfl⟩
abbrev main_v101 : Ref sig .tc := ⟨.hbm, 144, rfl⟩
abbrev main_c_32 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_33 : Ref sig .tc := ⟨.hbm, 151, rfl⟩
abbrev main_v107 : Ref sig .tc := ⟨.hbm, 152, rfl⟩
abbrev main_v108 : Ref sig .tc := ⟨.hbm, 153, rfl⟩
abbrev main_c_34 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_35 : Ref sig .tc := ⟨.hbm, 161, rfl⟩
abbrev main_v115 : Ref sig .tc := ⟨.hbm, 162, rfl⟩
abbrev main_v116 : Ref sig .tc := ⟨.hbm, 163, rfl⟩
abbrev main_c_36 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_37 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_38 : Ref sig .tc := ⟨.hbm, 177, rfl⟩
abbrev main_v128 : Ref sig .tc := ⟨.hbm, 178, rfl⟩
abbrev main_v129 : Ref sig .tc := ⟨.hbm, 179, rfl⟩
abbrev main_cst_39 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_40 : Ref sig .tc := ⟨.hbm, 184, rfl⟩
abbrev main_v133 : Ref sig .tc := ⟨.hbm, 185, rfl⟩
abbrev main_cst_41 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_42 : Ref sig .tc := ⟨.hbm, 190, rfl⟩
abbrev main_v137 : Ref sig .tc := ⟨.hbm, 191, rfl⟩
abbrev main_v138 : Ref sig .tc := ⟨.hbm, 192, rfl⟩
abbrev main_cst_43 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_44 : Ref sig .tc := ⟨.hbm, 197, rfl⟩
abbrev main_call3_v0 : Ref sig .tc := ⟨.hbm, 198, rfl⟩
abbrev main_call3_v1 : Ref sig .tc := ⟨.hbm, 199, rfl⟩
abbrev main_v142 : Ref sig .tc := ⟨.hbm, 200, rfl⟩
abbrev main_c_45 : Ref sig .tc := ⟨.hbm, 201, rfl⟩
abbrev main_v143 : Ref sig .tc := ⟨.hbm, 202, rfl⟩
abbrev main_v144 : Ref sig .tc := ⟨.hbm, 203, rfl⟩
abbrev main_c_46 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_c_47 : Ref sig .tc := ⟨.hbm, 210, rfl⟩
abbrev main_v150 : Ref sig .tc := ⟨.hbm, 211, rfl⟩
abbrev main_v151 : Ref sig .tc := ⟨.hbm, 212, rfl⟩
abbrev main_c_48 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_c_49 : Ref sig .tc := ⟨.hbm, 220, rfl⟩
abbrev main_v158 : Ref sig .tc := ⟨.hbm, 221, rfl⟩
abbrev main_v159 : Ref sig .tc := ⟨.hbm, 222, rfl⟩
abbrev main_c_50 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_51 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_cst_52 : Ref sig .tc := ⟨.hbm, 236, rfl⟩
abbrev main_v171 : Ref sig .tc := ⟨.hbm, 237, rfl⟩
abbrev main_v172 : Ref sig .tc := ⟨.hbm, 238, rfl⟩
abbrev main_cst_53 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_54 : Ref sig .tc := ⟨.hbm, 243, rfl⟩
abbrev main_v176 : Ref sig .tc := ⟨.hbm, 244, rfl⟩
abbrev main_cst_55 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_56 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_57 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelRun.lean ====
/-
  The idealized kernel's run, with its result named.

  @main is ten segments: three stretches of host operations, then four kernel regions with a stretch of host
  operations before each of the last three. The buffer contents at each boundary are a fold from the launch
  memory: a host stretch rewrites the buffers its operations write, a region leaves in each of its arrays what
  its grid points wrote back and every other buffer as entered. The last boundary's contents are `W10`; at the end
  of every weakly fair execution each unscoped buffer holds its `W10` contents, in particular the result buffer
  `main_v67` (the fourth region's output array), and the three argument buffers hold what they were launched with.
-/
import proofs.«145455_j936302871076_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_value : θ_run defs (onTc (τ := τ) (main (F := F))) ⟨m, fun _ => 0, ρ⟩ (fun r => ∀ c : Dev nD,
      r.2.mem ((c.tc : Thread nD τ).loc main_v67) = W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v67 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.KernelIdeal.KRun

end
-- ==== Proof.Spec.lean ====
/-
  The two rectangular passes of one propagation step, as whole arrays.

  A propagation step gathers one row of the node table per edge, multiplies each gathered row by its edge's
  normalisation factor, and adds the rows up per destination node; the node table is then mixed with the input as
  `s · (0.9 · p + 0.1 · x)`. The gather and the sum are host operations; what the two kernels compute, over all
  edges and over all nodes, are the two functions below, entry by entry.
-/
import proofs.«145455_j936302871076_1_alg».proof.KernelIdeal

noncomputable section

namespace Cert.KernelIdeal.Spec

open Cert.KernelIdeal Idealize.ShloMosaic

variable {F : FTy → Type} [FloatOps F]

/-- Entry `(e, k)` of an [E, 64] array sits beside entry `(e, 0)` of an [E, 1] column. -/
abbrev colOf (i : S1250000x64.Idx) : S1250000x1.Idx := fun a => match a with
  | ⟨0, _⟩ => ⟨(i 0).val, (i 0).isLt⟩
  | ⟨1, _⟩ => ⟨0, Nat.one_pos⟩

/-- The one entry of a [1, 1] array. -/
abbrev origin11 : S1x1.Idx := fun a => match a with
  | ⟨0, _⟩ => ⟨0, Nat.one_pos⟩
  | ⟨1, _⟩ => ⟨0, Nat.one_pos⟩

/-- Every row of `x` multiplied by its row's entry of the column `nrm`: the messages of one propagation step. -/
def scaled (x : S1250000x64.Idx → Elt F .f32) (nrm : S1250000x1.Idx → Elt F .f32) : S1250000x64.Idx → Elt F .f32 :=
  fun i => FloatOps.mulf (x i) (nrm (colOf i))

/-- The residual mix `s · (0.9 · p + 0.1 · x)`, the two literals as their f32 words, `s` the one entry of a
    [1, 1] array. -/
def combined (p x : S100000x64.Idx → Elt F .f32) (s : S1x1.Idx → Elt F .f32) : S100000x64.Idx → Elt F .f32 :=
  fun i => FloatOps.mulf (s origin11)
    (FloatOps.addf (FloatOps.mulf (FloatOps.ofBits .f32 0x3F666666#32) (p i))
                   (FloatOps.mulf (FloatOps.ofBits .f32 0x3DCCCCCD#32) (x i)))

end Cert.KernelIdeal.Spec

end
-- ==== Proof.Entry.lean ====
/-
  What the first kernel region finds: the host operations before it, read at the buffers later segments use.

  Before the first region @main slices the edge list into its row of destination nodes and its row of source
  nodes, counts each node's edges, takes the inverse square root of the counts (zero where a node has none),
  multiplies the two ends' values into one factor per edge, takes the softmax of the stack weights and its sum,
  and gathers one row of the node table per edge. The reference program performs the same operations in the same
  order on the same arguments, so each of these buffers holds the value of the reference's corresponding stage:
  the two terms are the same operations applied to the same arguments.
-/
import proofs.«145455_j936302871076_1_alg».proof.Proof.Gen.KernelIdeal.Frame
import proofs.«145455_j936302871076_1_alg».proof.Proof.RefRead

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The destination node of every edge: row 0 of the edge list. -/
theorem rows : W3 m ρ c (Proc.devRef .tc main_v1) = Cert.ReferenceIdeal.ReadP.val_main_v1 (F := F) (m ((c.tc : Thread nD τ).loc main_arg1)) := by
  show StableHlo.after hostOps0_2 (StableHlo.after hostOps0_1 (StableHlo.after hostOps0 (W0 m ρ c))) (Proc.devRef .tc main_v1) = _
  after_results_simp
  rfl

/-- The source node of every edge: row 1 of the edge list. -/
theorem cols : W3 m ρ c (Proc.devRef .tc main_v3) = Cert.ReferenceIdeal.ReadP.val_main_v3 (F := F) (m ((c.tc : Thread nD τ).loc main_arg1)) := by
  show StableHlo.after hostOps0_2 (StableHlo.after hostOps0_1 (StableHlo.after hostOps0 (W0 m ρ c))) (Proc.devRef .tc main_v3) = _
  after_results_simp
  rfl

set_option maxHeartbeats 1000000 in
/-- The factor of every edge: the product of its two ends' inverse square-root degrees. -/
theorem factor : W3 m ρ c (Proc.devRef .tc main_v28) = Cert.ReferenceIdeal.ReadP.val_main_v28 (F := F) (m ((c.tc : Thread nD τ).loc main_arg1)) := by
  show StableHlo.after hostOps0_2 (StableHlo.after hostOps0_1 (StableHlo.after hostOps0 (W0 m ρ c))) (Proc.devRef .tc main_v28) = _
  after_results_simp
  rfl

set_option maxHeartbeats 1000000 in
/-- The factors as an [E, 1] column: the same values, reshaped. -/
theorem factorColumn : W3 m ρ c (Proc.devRef .tc main_v49)
    = shapeCast S1250000x1 (Cert.ReferenceIdeal.ReadP.val_main_v28 (F := F) (m ((c.tc : Thread nD τ).loc main_arg1))) shapeCasts_S1250000_S1250000x1 := by
  show StableHlo.after hostOps0_2 (StableHlo.after hostOps0_1 (StableHlo.after hostOps0 (W0 m ρ c))) (Proc.devRef .tc main_v49) = _
  after_results_simp
  rfl

set_option maxHeartbeats 1000000 in
/-- One row of the node table per edge, the edge's source node's. -/
theorem gathered : W3 m ρ c (Proc.devRef .tc main_v48)
    = Cert.ReferenceIdeal.ReadP.val_main_v35 (F := F) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v48) = _
  after_results_simp
  rfl

set_option maxHeartbeats 1000000 in
/-- The softmax of the stack weights. -/
theorem weights : W3 m ρ c (Proc.devRef .tc main_v38) = Cert.ReferenceIdeal.ReadP.val_main_v185 (F := F) (m ((c.tc : Thread nD τ).loc main_arg2)) := by
  show StableHlo.after hostOps0_2 (StableHlo.after hostOps0_1 (StableHlo.after hostOps0 (W0 m ρ c))) (Proc.devRef .tc main_v38) = _
  after_results_simp
  rfl

set_option maxHeartbeats 1000000 in
/-- The sum of the softmax weights, as the one entry of a [1, 1] array. -/
theorem weightSum : W3 m ρ c (Proc.devRef .tc main_v40)
    = shapeCast S1x1 (Host.reduceAdd (Cert.ReferenceIdeal.ReadP.val_main_v185 (F := F) (m ((c.tc : Thread nD τ).loc main_arg2)))
        (constant (F := F) S_ .f32 0x00000000#32) reducesTo_S2_S_d0 h_S_) shapeCasts_S_S1x1 := by
  show StableHlo.after hostOps0_2 (StableHlo.after hostOps0_1 (StableHlo.after hostOps0 (W0 m ρ c))) (Proc.devRef .tc main_v40) = _
  after_results_simp
  rfl

/-- The [1, 1] array holding one. -/
theorem unit : W3 m ρ c (Proc.devRef .tc main_v41) = broadcastInDim S1x1 ![] bcast_S_S1x1 (constant (F := F) S_ .f32 0x3F800000#32) := by
  show StableHlo.after hostOps0_2 (StableHlo.after hostOps0_1 (StableHlo.after hostOps0 (W0 m ρ c))) (Proc.devRef .tc main_v41) = _
  after_results_simp

/-- The node table as launched: no host operation writes an argument. -/
theorem table : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

end Cert.KernelIdeal.Entry

end
-- ==== Proof.RefBridge.lean ====
/-
  The two rectangular passes against the reference's stages.

  The reference multiplies the gathered rows by the per-edge factor after broadcasting the factor twice
  ([E] to [E, 1] to [E, 64]); the kernel reshapes the factor to an [E, 1] column and broadcasts inside each block.
  Entry (e, k) of either product is the gathered entry (e, k) times the factor of edge e. The reference's mix
  `0.9 · p + 0.1 · x` is the kernel's `s · (0.9 · p + 0.1 · x)` at `s = 1`.
-/
import proofs.«145455_j936302871076_1_alg».proof.Proof.Spec
import proofs.«145455_j936302871076_1_alg».proof.Proof.Gen.KernelIdeal
import proofs.«145455_j936302871076_1_alg».proof.Proof.RefRead

set_option maxRecDepth 16384

noncomputable section

namespace Cert.KernelIdeal.RefBridge

open Cert.KernelIdeal Cert.KernelIdeal.Gen Idealize.ShloMosaic
open Cert.ReferenceIdeal.ReadP

variable {F : FTy → Type} [FloatOps F]

/-- A vector reshaped to a column, at row `e` of the column, is the vector at `e`. -/
theorem column_apply (y : S1250000.Idx → Elt F .f32) (i : S1250000x64.Idx) (k : S1250000.Idx) (hk : (k 0).val = (i 0).val) :
    shapeCast S1250000x1 y shapeCasts_S1250000_S1250000x1 (Spec.colOf i) = y k := by
  refine shapeCast_apply y shapeCasts_S1250000_S1250000x1 (Spec.colOf i) k ?_
  rw [Shape.rowMajor_val_one, Shape.rowMajor_val_two]
  show (k 0).val = (i 0).val * 1 + 0
  omega

/-- The first layer's messages: the kernel's product is the reference's. -/
theorem messages1 (a0 : (⟨Cert.ReferenceIdeal.S100000x64, .f32⟩ : BufTy).Contents (Elt F)) (a1 : (⟨Cert.ReferenceIdeal.S2x1250000, .i32⟩ : BufTy).Contents (Elt F)) :
    Spec.scaled (val_main_v35 (F := F) a0 a1) (shapeCast S1250000x1 (val_main_v28 (F := F) a1) shapeCasts_S1250000_S1250000x1)
      = val_main_v38 (F := F) a0 a1 := by
  funext i
  rw [val_main_v38_apply, val_main_v37_apply, val_main_v36_apply]
  show FloatOps.mulf (val_main_v35 (F := F) a0 a1 i) _ = _
  rw [column_apply (val_main_v28 (F := F) a1) i (idx_main_v36 (idx_main_v37 i)) rfl]

set_option maxHeartbeats 1000000 in
/-- The per-edge factor the reference computes again for the second layer is the first layer's. -/
theorem factor_again (a1 : (⟨Cert.ReferenceIdeal.S2x1250000, .i32⟩ : BufTy).Contents (Elt F)) :
    val_main_v71 (F := F) a1 = val_main_v28 (F := F) a1 := rfl

/-- The second layer's messages. -/
theorem messages2 (a0 : (⟨Cert.ReferenceIdeal.S100000x64, .f32⟩ : BufTy).Contents (Elt F)) (a1 : (⟨Cert.ReferenceIdeal.S2x1250000, .i32⟩ : BufTy).Contents (Elt F)) :
    Spec.scaled (val_main_v78 (F := F) a0 a1) (shapeCast S1250000x1 (val_main_v28 (F := F) a1) shapeCasts_S1250000_S1250000x1)
      = val_main_v81 (F := F) a0 a1 := by
  funext i
  rw [val_main_v81_apply, val_main_v80_apply, val_main_v79_apply, factor_again]
  show FloatOps.mulf (val_main_v78 (F := F) a0 a1 i) _ = _
  rw [column_apply (val_main_v28 (F := F) a1) i (idx_main_v79 (idx_main_v80 i)) rfl]

/-- The f32 word of one denotes one. -/
theorem one_f32 : Ideal.ofBits .f32 0x3F800000#32 = (1 : EReal) := by
  simp [Ideal.ofBits, Ideal.ieee]
  rw [← EReal.coe_mul]
  norm_num

/-- The first layer's mix: at scale one the kernel's pass is the reference's `0.9 · p + 0.1 · x`. -/
theorem mix1 (a0 : (⟨Cert.ReferenceIdeal.S100000x64, .f32⟩ : BufTy).Contents (Elt Ideal)) (a1 : (⟨Cert.ReferenceIdeal.S2x1250000, .i32⟩ : BufTy).Contents (Elt Ideal)) :
    Spec.combined (val_main_v41 (F := Ideal) a0 a1) a0 (broadcastInDim S1x1 ![] bcast_S_S1x1 (constant (F := Ideal) S_ .f32 0x3F800000#32))
      = val_main_v46 (F := Ideal) a0 a1 := by
  funext i
  rw [val_main_v46_apply, val_main_v43_apply, val_main_v45_apply, val_main_v42_apply, val_main_v44_apply,
    val_main_cst_10_apply, val_main_cst_11_apply]
  show FloatOps.mulf (FloatOps.ofBits (F := Ideal) .f32 0x3F800000#32) _ = _
  rw [Ideal.ofBits_def, one_f32]
  exact one_mul _

end Cert.KernelIdeal.RefBridge

end
-- ==== Proof.ScaleBlocks.lean ====
/-
  The scaling pass, from its row blocks to the whole array.

  The pass walks an [E, 64] array of gathered rows in blocks of 10000 consecutive rows: point `t` of the grid holds
  rows `10000·t … 10000·t + 9999` of the rows, the same rows of the [E, 1] column of factors, and writes the same
  rows of the result. Inside a block, entry `(r, k)` of the result is entry `(r, k)` of the rows times entry
  `(r, 0)` of the factors (the column is repeated along the 64 entries of a row). Row `r` of the block is row
  `10000·t + r` of the array, on all three windows, so what point `t` writes back is block `t` of ONE function of
  the two whole arrays: every entry of the rows times its row's factor. Row `e` of the array lies in the block of
  point `e / 10000`, and there are E / 10000 points, so the blocks tile the array and after the last point the
  result array is that function everywhere.
-/
import proofs.«145455_j936302871076_1_alg».proof.Proof.Gen.KernelIdeal.Frame
import proofs.«145455_j936302871076_1_alg».proof.Proof.Spec
import Idealize.ShloMosaic.Lib.Pipeline.Value

set_option maxRecDepth 16384

noncomputable section

namespace Cert.KernelIdeal.Scale0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- Entry `(r, k)` of a block of rows sits beside entry `(r, 0)` of the block of factors. -/
abbrev facOf (j : S10000x64.Idx) : S10000x1.Idx := fun a => match a with
  | ⟨0, _⟩ => ⟨(j 0).val, (j 0).isLt⟩
  | ⟨1, _⟩ => ⟨0, Nat.one_pos⟩

/-- Inside a block: entry `(r, k)` of the product is entry `(r, k)` of the rows times entry `(r, 0)` of the
    factors. -/
theorem pay_apply (v0 : Vec F S10000x64 .f32) (v2 : Vec F S10000x1 .f32) (j : S10000x64.Idx) :
    k0_pay1 v0 v2 j = FloatOps.mulf (v0 j) (v2 (facOf j)) := by
  unfold k0_pay1
  show FloatOps.mulf (shapeCast S10000x64 v0 shapeCasts_S10000x64_S10000x64 j)
      (broadcastTo S10000x64 (shapeCast S10000x1 v2 shapeCasts_S10000x1_S10000x1) broadcasts_S10000x1_S10000x64 j) = _
  rw [shapeCast_self, shapeCast_self]
  rw [broadcastTo_apply v2 broadcasts_S10000x1_S10000x64 j (facOf j) (fun a => by
    match a with
    | ⟨0, _⟩ => rfl
    | ⟨1, _⟩ => rfl)]

/-- The index maps over the 125 points: point `t` holds block `(t, 0)` of each of the three arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled rows of the two whole arrays. -/
theorem flushed_eq (c : Dev nD) (t : Fin cfg0.N) :
    (dat0 V c).flushed 2 t
      = ((cfg0.win 2).blk t).view.read (Elt F) (Spec.scaled (V c main_v48) (V c main_v49)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  obtain ⟨e0, e1, e2, e3, e4, e5⟩ := idx_facts t
  funext j
  show k0_pay1 (iblk0 V c 0 t) (iblk0 V c 1 t) j
      = Spec.scaled (V c main_v48) (V c main_v49) (((cfg0.win 2).blk t).view.emb j)
  rw [pay_apply]
  show FloatOps.mulf (V c main_v48 (((cfg0.win 0).blk t).view.emb j))
        (V c main_v49 (((cfg0.win 1).blk t).view.emb (facOf j)))
      = FloatOps.mulf (V c main_v48 (((cfg0.win 2).blk t).view.emb j))
        (V c main_v49 (Spec.colOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (facOf j) = Spec.colOf (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An entry of the array is in point `t`'s block iff each coordinate is in the block's range on its axis. -/
theorem mem_blk (t : Fin cfg0.N) (i : S1250000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v50).slice (win0_2.rect t)).set ↔ _
  rw [View.set_slice_whole, Rect.mem_set_unit]
  exact Iff.rfl

/-- Row `e` lies in the block of point `e / 10000`: the blocks tile the array. -/
theorem cover (i : S1250000x64.Idx) :
    ∃ t : Fin cfg0.N, (cfg0.win 2).flush t = true ∧ i ∈ ((cfg0.win 2).blk t).view.set := by
  have hi0 : (i 0).val < 1250000 := (i 0).isLt
  have hi1 : (i 1).val < 64 := (i 1).isLt
  have ht : (i 0).val / 10000 < cfg0.N := by
    show (i 0).val / 10000 < grid0.N
    rw [N_0]; omega
  obtain ⟨-, -, -, -, e4, e5⟩ := idx_facts ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- After the last point the result array is the scaled rows: every entry of the rows times its row's factor. -/
theorem final (c : Dev nD) :
    (dat0 V c).arrAt 2 cfg0.N = Spec.scaled (V c main_v48) (V c main_v49) :=
  (dat0 V c).arrAt_eq_of_cover 2 (Spec.scaled (V c main_v48) (V c main_v49)) (fun t _ => flushed_eq V c t) cover

end Cert.KernelIdeal.Scale0

namespace Cert.KernelIdeal.Scale2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- Entry `(r, k)` of a block of rows sits beside entry `(r, 0)` of the block of factors. -/
abbrev facOf (j : S10000x64.Idx) : S10000x1.Idx := fun a => match a with
  | ⟨0, _⟩ => ⟨(j 0).val, (j 0).isLt⟩
  | ⟨1, _⟩ => ⟨0, Nat.one_pos⟩

/-- Inside a block: entry `(r, k)` of the product is entry `(r, k)` of the rows times entry `(r, 0)` of the
    factors. -/
theorem pay_apply (v0 : Vec F S10000x64 .f32) (v2 : Vec F S10000x1 .f32) (j : S10000x64.Idx) :
    k2_pay1 v0 v2 j = FloatOps.mulf (v0 j) (v2 (facOf j)) := by
  unfold k2_pay1
  show FloatOps.mulf (shapeCast S10000x64 v0 shapeCasts_S10000x64_S10000x64 j)
      (broadcastTo S10000x64 (shapeCast S10000x1 v2 shapeCasts_S10000x1_S10000x1) broadcasts_S10000x1_S10000x64 j) = _
  rw [shapeCast_self, shapeCast_self]
  rw [broadcastTo_apply v2 broadcasts_S10000x1_S10000x64 j (facOf j) (fun a => by
    match a with
    | ⟨0, _⟩ => rfl
    | ⟨1, _⟩ => rfl)]

/-- The index maps over the 125 points: point `t` holds block `(t, 0)` of each of the three arrays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled rows of the two whole arrays. -/
theorem flushed_eq (c : Dev nD) (t : Fin cfg2.N) :
    (dat2 V c).flushed 2 t
      = ((cfg2.win 2).blk t).view.read (Elt F) (Spec.scaled (V c main_v61) (V c main_v62)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  obtain ⟨e0, e1, e2, e3, e4, e5⟩ := idx_facts t
  funext j
  show k2_pay1 (iblk2 V c 0 t) (iblk2 V c 1 t) j
      = Spec.scaled (V c main_v61) (V c main_v62) (((cfg2.win 2).blk t).view.emb j)
  rw [pay_apply]
  show FloatOps.mulf (V c main_v61 (((cfg2.win 0).blk t).view.emb j))
        (V c main_v62 (((cfg2.win 1).blk t).view.emb (facOf j)))
      = FloatOps.mulf (V c main_v61 (((cfg2.win 2).blk t).view.emb j))
        (V c main_v62 (Spec.colOf (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (facOf j) = Spec.colOf (((cfg2.win 2).blk t).view.emb j) := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  rw [h0, h1]

/-- An entry of the array is in point `t`'s block iff each coordinate is in the block's range on its axis. -/
theorem mem_blk (t : Fin cfg2.N) (i : S1250000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v63).slice (win2_2.rect t)).set ↔ _
  rw [View.set_slice_whole, Rect.mem_set_unit]
  exact Iff.rfl

/-- Row `e` lies in the block of point `e / 10000`: the blocks tile the array. -/
theorem cover (i : S1250000x64.Idx) :
    ∃ t : Fin cfg2.N, (cfg2.win 2).flush t = true ∧ i ∈ ((cfg2.win 2).blk t).view.set := by
  have hi0 : (i 0).val < 1250000 := (i 0).isLt
  have hi1 : (i 1).val < 64 := (i 1).isLt
  have ht : (i 0).val / 10000 < cfg2.N := by
    show (i 0).val / 10000 < grid2.N
    rw [N_2]; omega
  obtain ⟨-, -, -, -, e4, e5⟩ := idx_facts ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-- After the last point the result array is the scaled rows: every entry of the rows times its row's factor. -/
theorem final (c : Dev nD) :
    (dat2 V c).arrAt 2 cfg2.N = Spec.scaled (V c main_v61) (V c main_v62) :=
  (dat2 V c).arrAt_eq_of_cover 2 (Spec.scaled (V c main_v61) (V c main_v62)) (fun t _ => flushed_eq V c t) cover

end Cert.KernelIdeal.Scale2

end
-- ==== Proof.CombineBlocks.lean ====
/-
  The mixing pass, from its row blocks to the whole array.

  The pass walks two [N, 64] node tables `p` and `x` in blocks of 10000 consecutive rows: point `t` of the grid
  holds rows `10000·t … 10000·t + 9999` of both, and writes the same rows of the result; the [1, 1] array `s` is
  held whole at every point. Inside a block, entry `(r, k)` of the result is
  `s(0,0) · (0.9 · p(r,k) + 0.1 · x(r,k))`, the two literals as their f32 words. Row `r` of the block is row
  `10000·t + r` of the table, on all three row windows, and the one entry of `s` is the one entry of its block,
  so what point `t` writes back is block `t` of ONE function of the three whole arrays: the mix, entry by entry.
  Row `n` of the table lies in the block of point `n / 10000`, and there are N / 10000 points, so the blocks tile
  the table and after the last point the result array is the mix everywhere.
-/
import proofs.«145455_j936302871076_1_alg».proof.Proof.Gen.KernelIdeal.Frame
import proofs.«145455_j936302871076_1_alg».proof.Proof.Spec
import Idealize.ShloMosaic.Lib.Pipeline.Value

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- Inside a block: entry `(r, k)` of the result is `s(0,0) · (0.9 · p(r,k) + 0.1 · x(r,k))`. -/
theorem pay_apply (v0 : Vec F S1x1 .f32) (v2 v6 : Vec F S10000x64 .f32) (j : S10000x64.Idx) :
    k1_pay1 v0 v2 v6 j = FloatOps.mulf (v0 Spec.origin11)
      (FloatOps.addf (FloatOps.mulf (FloatOps.ofBits .f32 0x3F666666#32) (v2 j))
                     (FloatOps.mulf (FloatOps.ofBits .f32 0x3DCCCCCD#32) (v6 j))) := by
  unfold k1_pay1
  show FloatOps.mulf (extractAt ![0, 0] v0 inpos_S1x1_p0_0)
      (FloatOps.addf (FloatOps.mulf (FloatOps.ofBits .f32 0x3F666666#32) (shapeCast S10000x64 v2 shapeCasts_S10000x64_S10000x64 j))
                     (FloatOps.mulf (FloatOps.ofBits .f32 0x3DCCCCCD#32) (v6 j))) = _
  rw [shapeCast_self]
  have hs : extractAt ![0, 0] v0 inpos_S1x1_p0_0 = v0 Spec.origin11 :=
    congrArg v0 (funext fun a => by
      match a with
      | ⟨0, _⟩ => rfl
      | ⟨1, _⟩ => rfl)
  rw [hs]

/-- The index maps over the 10 points: point `t` holds block `(t, 0)` of the two tables and of the result, and the
    one block `(0, 0)` of the [1, 1] array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the mix of the three whole arrays. -/
theorem flushed_eq (c : Dev nD) (t : Fin cfg1.N) :
    (dat1 V c).flushed 3 t
      = ((cfg1.win 3).blk t).view.read (Elt F) (Spec.combined (V c main_v53) (V c main_arg0) (V c main_v41)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x1) hz]
  obtain ⟨e0, e1, e2, e3, e4, e5, e6, e7⟩ := idx_facts t
  funext j
  show k1_pay1 (iblk1 V c 2 t) (iblk1 V c 0 t) (iblk1 V c 1 t) j
      = Spec.combined (V c main_v53) (V c main_arg0) (V c main_v41) (((cfg1.win 3).blk t).view.emb j)
  rw [pay_apply]
  show FloatOps.mulf (V c main_v41 (((cfg1.win 2).blk t).view.emb Spec.origin11))
        (FloatOps.addf (FloatOps.mulf (FloatOps.ofBits .f32 0x3F666666#32) (V c main_v53 (((cfg1.win 0).blk t).view.emb j)))
                       (FloatOps.mulf (FloatOps.ofBits .f32 0x3DCCCCCD#32) (V c main_arg0 (((cfg1.win 1).blk t).view.emb j))))
      = FloatOps.mulf (V c main_v41 Spec.origin11)
        (FloatOps.addf (FloatOps.mulf (FloatOps.ofBits .f32 0x3F666666#32) (V c main_v53 (((cfg1.win 3).blk t).view.emb j)))
                       (FloatOps.mulf (FloatOps.ofBits .f32 0x3DCCCCCD#32) (V c main_arg0 (((cfg1.win 3).blk t).view.emb j))))
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb Spec.origin11 = Spec.origin11 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]

/-- An entry of the table is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v54).slice (win1_3.rect t)).set ↔ _
  rw [View.set_slice_whole, Rect.mem_set_unit]
  exact Iff.rfl

/-- Row `n` lies in the block of point `n / 10000`: the blocks tile the table. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < cfg1.N := by
    show (i 0).val / 10000 < grid1.N
    rw [N_1]; omega
  obtain ⟨-, -, -, -, -, -, e6, e7⟩ := idx_facts ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- After the last point the result array is the mix `s · (0.9 · p + 0.1 · x)`, entry by entry. -/
theorem final (c : Dev nD) :
    (dat1 V c).arrAt 3 cfg1.N = Spec.combined (V c main_v53) (V c main_arg0) (V c main_v41) :=
  (dat1 V c).arrAt_eq_of_cover 3 (Spec.combined (V c main_v53) (V c main_arg0) (V c main_v41)) (fun t _ => flushed_eq V c t) cover

end Cert.KernelIdeal.Combine1

namespace Cert.KernelIdeal.Combine3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- Inside a block: entry `(r, k)` of the result is `s(0,0) · (0.9 · p(r,k) + 0.1 · x(r,k))`. -/
theorem pay_apply (v0 : Vec F S1x1 .f32) (v2 v6 : Vec F S10000x64 .f32) (j : S10000x64.Idx) :
    k3_pay1 v0 v2 v6 j = FloatOps.mulf (v0 Spec.origin11)
      (FloatOps.addf (FloatOps.mulf (FloatOps.ofBits .f32 0x3F666666#32) (v2 j))
                     (FloatOps.mulf (FloatOps.ofBits .f32 0x3DCCCCCD#32) (v6 j))) := by
  unfold k3_pay1
  show FloatOps.mulf (extractAt ![0, 0] v0 inpos_S1x1_p0_0)
      (FloatOps.addf (FloatOps.mulf (FloatOps.ofBits .f32 0x3F666666#32) (shapeCast S10000x64 v2 shapeCasts_S10000x64_S10000x64 j))
                     (FloatOps.mulf (FloatOps.ofBits .f32 0x3DCCCCCD#32) (v6 j))) = _
  rw [shapeCast_self]
  have hs : extractAt ![0, 0] v0 inpos_S1x1_p0_0 = v0 Spec.origin11 :=
    congrArg v0 (funext fun a => by
      match a with
      | ⟨0, _⟩ => rfl
      | ⟨1, _⟩ => rfl)
  rw [hs]

/-- The index maps over the 10 points: point `t` holds block `(t, 0)` of the two tables and of the result, and the
    one block `(0, 0)` of the [1, 1] array. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the mix of the three whole arrays. -/
theorem flushed_eq (c : Dev nD) (t : Fin cfg3.N) :
    (dat3 V c).flushed 3 t
      = ((cfg3.win 3).blk t).view.read (Elt F) (Spec.combined (V c main_v66) (V c main_arg0) (V c main_v40)) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x1) hz]
  obtain ⟨e0, e1, e2, e3, e4, e5, e6, e7⟩ := idx_facts t
  funext j
  show k3_pay1 (iblk3 V c 2 t) (iblk3 V c 0 t) (iblk3 V c 1 t) j
      = Spec.combined (V c main_v66) (V c main_arg0) (V c main_v40) (((cfg3.win 3).blk t).view.emb j)
  rw [pay_apply]
  show FloatOps.mulf (V c main_v40 (((cfg3.win 2).blk t).view.emb Spec.origin11))
        (FloatOps.addf (FloatOps.mulf (FloatOps.ofBits .f32 0x3F666666#32) (V c main_v66 (((cfg3.win 0).blk t).view.emb j)))
                       (FloatOps.mulf (FloatOps.ofBits .f32 0x3DCCCCCD#32) (V c main_arg0 (((cfg3.win 1).blk t).view.emb j))))
      = FloatOps.mulf (V c main_v40 Spec.origin11)
        (FloatOps.addf (FloatOps.mulf (FloatOps.ofBits .f32 0x3F666666#32) (V c main_v66 (((cfg3.win 3).blk t).view.emb j)))
                       (FloatOps.mulf (FloatOps.ofBits .f32 0x3DCCCCCD#32) (V c main_arg0 (((cfg3.win 3).blk t).view.emb j))))
  have h0 : ((cfg3.win 0).blk t).view.emb j = ((cfg3.win 3).blk t).view.emb j := by
    funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb Spec.origin11 = Spec.origin11 := by
    funext a; apply Fin.ext
    match a with
    | ⟨0, _⟩ => show win3_2.index t (0 : Fin 2) * 1 + 1 * 0 = 0; omega
    | ⟨1, _⟩ => show win3_2.index t (1 : Fin 2) * 1 + 1 * 0 = 0; omega
  rw [h0, h1, h2]

/-- An entry of the table is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v67).slice (win3_3.rect t)).set ↔ _
  rw [View.set_slice_whole, Rect.mem_set_unit]
  exact Iff.rfl

/-- Row `n` lies in the block of point `n / 10000`: the blocks tile the table. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 10000 < cfg3.N := by
    show (i 0).val / 10000 < grid3.N
    rw [N_3]; omega
  obtain ⟨-, -, -, -, -, -, e6, e7⟩ := idx_facts ⟨(i 0).val / 10000, ht⟩
  have e6' : win3_3.index ⟨(i 0).val / 10000, ht⟩ (0 : Fin 2) = (i 0).val / 10000 := e6
  refine ⟨⟨(i 0).val / 10000, ht⟩, flush3_3 _, ?_⟩
  rw [mem_blk]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    omega
  | ⟨1, _⟩ =>
    show win3_3.index ⟨(i 0).val / 10000, ht⟩ (1 : Fin 2) * 64 ≤ (i 1).val
      ∧ (i 1).val < win3_3.index ⟨(i 0).val / 10000, ht⟩ (1 : Fin 2) * 64 + 64
    omega

/-- After the last point the result array is the mix `s · (0.9 · p + 0.1 · x)`, entry by entry. -/
theorem final (c : Dev nD) :
    (dat3 V c).arrAt 3 cfg3.N = Spec.combined (V c main_v66) (V c main_arg0) (V c main_v40) :=
  (dat3 V c).arrAt_eq_of_cover 3 (Spec.combined (V c main_v66) (V c main_arg0) (V c main_v40)) (fun t _ => flushed_eq V c t) cover

end Cert.KernelIdeal.Combine3

end
-- ==== Proof.Layers.lean ====
/-
  The buffers the later segments read, boundary by boundary, each as a stage of the reference.

  A region leaves in its output array the whole-array function of its input arrays, and every buffer that is not
  one of its arrays as it found it; a stretch of host operations rewrites the buffers its operations write and leaves
  the rest. Following the program: the first region's output is the first layer's messages; their sum per node, mixed
  with the node table at scale one, is the first layer's result; the second layer gathers from that result, and its
  messages and their sum are the reference's again; the last region mixes that sum with the node table at the scale
  that is the sum of the softmax weights.
-/
import proofs.«145455_j936302871076_1_alg».proof.Proof.Gen.KernelIdeal.Frame
import proofs.«145455_j936302871076_1_alg».proof.Proof.RefRead
import proofs.«145455_j936302871076_1_alg».proof.Proof.Spec
import proofs.«145455_j936302871076_1_alg».proof.Proof.Entry
import proofs.«145455_j936302871076_1_alg».proof.Proof.RefBridge
import proofs.«145455_j936302871076_1_alg».proof.Proof.ScaleBlocks
import proofs.«145455_j936302871076_1_alg».proof.Proof.CombineBlocks

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The node table, the edge list and the stack weights as launched. -/
abbrev tbl := m ((c.tc : Thread nD τ).loc main_arg0)
abbrev edges := m ((c.tc : Thread nD τ).loc main_arg1)
abbrev wts := m ((c.tc : Thread nD τ).loc main_arg2)

/-! ## The first layer -/

/-- The first region's output: the first layer's messages. -/
theorem messages1 : W4 m ρ c (Proc.devRef .tc main_v50) = Cert.ReferenceIdeal.ReadP.val_main_v38 (F := Ideal) (tbl m c) (edges m c) := by
  refine (W4_arr m ρ c 2).trans ?_
  rw [Scale0.final (V3 m ρ) c]
  show Spec.scaled (W3 m ρ c (Proc.devRef .tc main_v48)) (W3 m ρ c (Proc.devRef .tc main_v49)) = _
  rw [Entry.gathered, Entry.factorColumn]
  exact RefBridge.messages1 _ _

theorem rows4 : W4 m ρ c (Proc.devRef .tc main_v1) = Cert.ReferenceIdeal.ReadP.val_main_v1 (F := Ideal) (edges m c) := by
  rw [W4_of_ne m ρ c main_v1 (by decide), Entry.rows]

/-- The messages summed per destination node. -/
theorem sum1 : W5 m ρ c (Proc.devRef .tc main_v53) = Cert.ReferenceIdeal.ReadP.val_main_v41 (F := Ideal) (tbl m c) (edges m c) := by
  show StableHlo.after hostOps1 (W4 m ρ c) (Proc.devRef .tc main_v53) = _
  after_results_simp
  rw [messages1, rows4]
  rfl

theorem table5 : W5 m ρ c (Proc.devRef .tc main_arg0) = tbl m c := by
  show StableHlo.after hostOps1 (W4 m ρ c) (Proc.devRef .tc main_arg0) = _
  after_results_simp
  rw [W4_of_ne m ρ c main_arg0 (by decide), Entry.table]

theorem unit5 : W5 m ρ c (Proc.devRef .tc main_v41) = broadcastInDim S1x1 ![] bcast_S_S1x1 (constant (F := Ideal) S_ .f32 0x3F800000#32) := by
  show StableHlo.after hostOps1 (W4 m ρ c) (Proc.devRef .tc main_v41) = _
  after_results_simp
  rw [W4_of_ne m ρ c main_v41 (by decide), Entry.unit]

/-- The second region's output: the first layer's result. -/
theorem layer1 : W6 m ρ c (Proc.devRef .tc main_v54) = Cert.ReferenceIdeal.ReadP.val_main_v46 (F := Ideal) (tbl m c) (edges m c) := by
  refine (W6_arr m ρ c 3).trans ?_
  rw [Combine1.final (V5 m ρ) c]
  show Spec.combined (W5 m ρ c (Proc.devRef .tc main_v53)) (W5 m ρ c (Proc.devRef .tc main_arg0)) (W5 m ρ c (Proc.devRef .tc main_v41)) = _
  rw [sum1, table5, unit5]
  exact RefBridge.mix1 _ _

/-! ## The second layer -/

theorem cols6 : W6 m ρ c (Proc.devRef .tc main_v3) = Cert.ReferenceIdeal.ReadP.val_main_v3 (F := Ideal) (edges m c) := by
  rw [W6_of_ne m ρ c main_v3 (by decide)]
  show StableHlo.after hostOps1 (W4 m ρ c) (Proc.devRef .tc main_v3) = _
  after_results_simp
  rw [W4_of_ne m ρ c main_v3 (by decide), Entry.cols]

theorem factor6 : W6 m ρ c (Proc.devRef .tc main_v28) = Cert.ReferenceIdeal.ReadP.val_main_v28 (F := Ideal) (edges m c) := by
  rw [W6_of_ne m ρ c main_v28 (by decide)]
  show StableHlo.after hostOps1 (W4 m ρ c) (Proc.devRef .tc main_v28) = _
  after_results_simp
  rw [W4_of_ne m ρ c main_v28 (by decide), Entry.factor]

theorem rows6 : W6 m ρ c (Proc.devRef .tc main_v1) = Cert.ReferenceIdeal.ReadP.val_main_v1 (F := Ideal) (edges m c) := by
  rw [W6_of_ne m ρ c main_v1 (by decide)]
  show StableHlo.after hostOps1 (W4 m ρ c) (Proc.devRef .tc main_v1) = _
  after_results_simp
  exact rows4 m ρ c

theorem table6 : W6 m ρ c (Proc.devRef .tc main_arg0) = tbl m c :=
  ((W6_arr m ρ c 1).trans (((dat1 (V5 m ρ) c).arrAt_in 1 rfl _).trans (A_eq1 (V5 m ρ) c 1))).trans (table5 m ρ c)

theorem weightSum6 : W6 m ρ c (Proc.devRef .tc main_v40)
    = shapeCast S1x1 (Host.reduceAdd (Cert.ReferenceIdeal.ReadP.val_main_v185 (F := Ideal) (wts m c)) (constant (F := Ideal) S_ .f32 0x00000000#32) reducesTo_S2_S_d0 h_S_) shapeCasts_S_S1x1 := by
  rw [W6_of_ne m ρ c main_v40 (by decide)]
  show StableHlo.after hostOps1 (W4 m ρ c) (Proc.devRef .tc main_v40) = _
  after_results_simp
  rw [W4_of_ne m ρ c main_v40 (by decide), Entry.weightSum]

/-- One row of the first layer's result per edge. -/
theorem gathered2 : W7 m ρ c (Proc.devRef .tc main_v61) = Cert.ReferenceIdeal.ReadP.val_main_v78 (F := Ideal) (tbl m c) (edges m c) := by
  show StableHlo.after hostOps2 (W6 m ρ c) (Proc.devRef .tc main_v61) = _
  after_results_simp
  rw [layer1, cols6]
  rfl

theorem factorColumn2 : W7 m ρ c (Proc.devRef .tc main_v62)
    = shapeCast S1250000x1 (Cert.ReferenceIdeal.ReadP.val_main_v28 (F := Ideal) (edges m c)) shapeCasts_S1250000_S1250000x1 := by
  show StableHlo.after hostOps2 (W6 m ρ c) (Proc.devRef .tc main_v62) = _
  after_results_simp
  rw [factor6]
  rfl

/-- The third region's output: the second layer's messages. -/
theorem messages2 : W8 m ρ c (Proc.devRef .tc main_v63) = Cert.ReferenceIdeal.ReadP.val_main_v81 (F := Ideal) (tbl m c) (edges m c) := by
  refine (W8_arr m ρ c 2).trans ?_
  rw [Scale2.final (V7 m ρ) c]
  show Spec.scaled (W7 m ρ c (Proc.devRef .tc main_v61)) (W7 m ρ c (Proc.devRef .tc main_v62)) = _
  rw [gathered2, factorColumn2]
  exact RefBridge.messages2 _ _

theorem rows8 : W8 m ρ c (Proc.devRef .tc main_v1) = Cert.ReferenceIdeal.ReadP.val_main_v1 (F := Ideal) (edges m c) := by
  rw [W8_of_ne m ρ c main_v1 (by decide)]
  show StableHlo.after hostOps2 (W6 m ρ c) (Proc.devRef .tc main_v1) = _
  after_results_simp
  exact rows6 m ρ c

theorem table8 : W8 m ρ c (Proc.devRef .tc main_arg0) = tbl m c := by
  rw [W8_of_ne m ρ c main_arg0 (by decide)]
  show StableHlo.after hostOps2 (W6 m ρ c) (Proc.devRef .tc main_arg0) = _
  after_results_simp
  exact table6 m ρ c

theorem weightSum8 : W8 m ρ c (Proc.devRef .tc main_v40)
    = shapeCast S1x1 (Host.reduceAdd (Cert.ReferenceIdeal.ReadP.val_main_v185 (F := Ideal) (wts m c)) (constant (F := Ideal) S_ .f32 0x00000000#32) reducesTo_S2_S_d0 h_S_) shapeCasts_S_S1x1 := by
  rw [W8_of_ne m ρ c main_v40 (by decide)]
  show StableHlo.after hostOps2 (W6 m ρ c) (Proc.devRef .tc main_v40) = _
  after_results_simp
  exact weightSum6 m ρ c

/-- The second layer's messages summed per destination node. -/
theorem sum2 : W9 m ρ c (Proc.devRef .tc main_v66) = Cert.ReferenceIdeal.ReadP.val_main_v84 (F := Ideal) (tbl m c) (edges m c) := by
  show StableHlo.after hostOps3 (W8 m ρ c) (Proc.devRef .tc main_v66) = _
  after_results_simp
  rw [messages2, rows8]
  rfl

theorem table9 : W9 m ρ c (Proc.devRef .tc main_arg0) = tbl m c := by
  show StableHlo.after hostOps3 (W8 m ρ c) (Proc.devRef .tc main_arg0) = _
  after_results_simp
  exact table8 m ρ c

theorem weightSum9 : W9 m ρ c (Proc.devRef .tc main_v40)
    = shapeCast S1x1 (Host.reduceAdd (Cert.ReferenceIdeal.ReadP.val_main_v185 (F := Ideal) (wts m c)) (constant (F := Ideal) S_ .f32 0x00000000#32) reducesTo_S2_S_d0 h_S_) shapeCasts_S_S1x1 := by
  show StableHlo.after hostOps3 (W8 m ρ c) (Proc.devRef .tc main_v40) = _
  after_results_simp
  exact weightSum8 m ρ c

/-- The last region's output, the kernel's result: the second layer's sum mixed with the node table, at the scale
    that is the sum of the softmax weights. -/
theorem result : W10 m ρ c (Proc.devRef .tc main_v67)
    = Spec.combined (Cert.ReferenceIdeal.ReadP.val_main_v84 (F := Ideal) (tbl m c) (edges m c)) (tbl m c)
        (shapeCast S1x1 (Host.reduceAdd (Cert.ReferenceIdeal.ReadP.val_main_v185 (F := Ideal) (wts m c)) (constant (F := Ideal) S_ .f32 0x00000000#32) reducesTo_S2_S_d0 h_S_) shapeCasts_S_S1x1) := by
  refine (W10_arr m ρ c 3).trans ?_
  rw [Combine3.final (V9 m ρ) c]
  show Spec.combined (W9 m ρ c (Proc.devRef .tc main_v66)) (W9 m ρ c (Proc.devRef .tc main_arg0)) (W9 m ρ c (Proc.devRef .tc main_v40)) = _
  rw [sum2, table9, weightSum9]

end Cert.KernelIdeal.Layers

end
-- ==== Proof.RefFinal.lean ====
import proofs.«145455_j936302871076_1_alg».proof.Proof.RefRead
import Idealize.ShloMosaic.Lib.IdealHost
import Idealize.ShloMosaic.Lib.ValueIdx
import Idealize.ShloMosaic.Lib.Pipeline.Value
import Idealize.ShloMosaic.PureOps.Ideal.Laws

/-!
  The reference's last steps, read at the extended reals.

  The reference runs the same two-layer propagation twice and mixes the two results with the
  softmax weights w₀, w₁ of the two stack weights:  out = (0 + w₀·S) + w₁·S,  where
  S = 0.9·A + 0.1·x and A is the second layer's scatter-add.  This file shows

    out = (0 + (w₀ + w₁)) · S.

  The step (w₀ + w₁)·S = w₀·S + w₁·S is NOT a law of the extended reals in general (take
  w₀ = 1, w₁ = -1, S = ⊤); it holds when both weights are nonnegative.  They are: when the two
  stack weights are real numbers, their maximum m is real, each exp(aₖ − m) is a positive real,
  the sum of the two is a positive real, and each quotient is a nonnegative real.  (Without
  finiteness the softmax can be 0/0, which is ⊥ here.)
-/

noncomputable section

open scoped BigOperators

namespace Cert.ReferenceIdeal.Final

open Cert.ReferenceIdeal Cert.ReferenceIdeal.Gen Cert.ReferenceIdeal.ReadP Idealize.ShloMosaic

/-! ## The two stacks, and the two computations of the per-edge factor, are the same terms -/

set_option maxHeartbeats 400000 in
/-- The second stack applies the same operations to the same arguments as the first. -/
theorem stack_eq (a0 : (⟨S100000x64, .f32⟩ : BufTy).Contents (Elt Ideal)) (a1 : (⟨S2x1250000, .i32⟩ : BufTy).Contents (Elt Ideal)) :
    val_main_v175 (F := Ideal) a0 a1 = val_main_v89 (F := Ideal) a0 a1 := rfl

set_option maxHeartbeats 400000 in
/-- The per-edge factor of the second layer is the same term as that of the first. -/
theorem factor_eq (a1 : (⟨S2x1250000, .i32⟩ : BufTy).Contents (Elt Ideal)) :
    val_main_v71 (F := Ideal) a1 = val_main_v28 (F := Ideal) a1 := rfl

/-! ## Bit patterns -/

/-- The f32 pattern `0x3F800000` denotes one. -/
theorem one_f32 : Ideal.ofBits .f32 0x3F800000#32 = (1 : EReal) := Ideal.ofBits_one_f32

/-- The f32 pattern of −∞ denotes the bottom of the extended reals. -/
theorem neg_inf_f32 : Ideal.ofBits .f32 0xFF800000#32 = (⊥ : EReal) := by
  simp [Ideal.ofBits, Ideal.ieee]

/-! ## Sums over a vector of length two, maxima of reals, and the softmax quotient -/

/-- A rank-1 index set is its one coordinate range … -/
def idxEquiv1 {n : Nat} : (⟨1, ![n]⟩ : Shape).Idx ≃ Fin n where
  toFun i := i 0
  invFun k := ValueIdx.ix1 k
  left_inv i := (ValueIdx.eq_ix1 i).symm
  right_inv _ := rfl

/-- … so a sum over the indices of a vector of length two is the sum of its two entries. -/
theorem sum_idx1_two {M : Type*} [AddCommMonoid M] (f : (⟨1, ![2]⟩ : Shape).Idx → M) :
    ∑ j, f j = f (ValueIdx.ix1 (0 : Fin 2)) + f (ValueIdx.ix1 (1 : Fin 2)) := by
  rw [← Equiv.sum_comp (idxEquiv1 (n := 2)).symm f, Fin.sum_univ_two]
  rfl

/-- The maximum, from −∞, of finitely many reals over a nonempty index set is a real:
    it is below ⊤ because every entry is, and above ⊥ because some entry is. -/
theorem fold_max_real {ι : Type} (s : Finset ι) (hs : s.Nonempty) (f : ι → EReal)
    (hf : ∀ i, ∃ r : ℝ, f i = (r : EReal)) : ∃ m : ℝ, s.fold max (⊥ : EReal) f = (m : EReal) := by
  have hlt : s.fold max (⊥ : EReal) f < ⊤ :=
    (Finset.fold_max_lt _).2 ⟨bot_lt_top, fun x _ => by obtain ⟨r, hr⟩ := hf x; rw [hr]; exact EReal.coe_lt_top r⟩
  have hgt : (⊥ : EReal) < s.fold max (⊥ : EReal) f := by
    obtain ⟨x, hx⟩ := hs
    obtain ⟨r, hr⟩ := hf x
    exact (Finset.lt_fold_max _).2 (Or.inr ⟨x, hx, by rw [hr]; exact EReal.bot_lt_coe r⟩)
  exact ⟨_, (EReal.coe_toReal hlt.ne hgt.ne').symm⟩

/-- exp (a − m) of two reals is the real exponential of their difference. -/
theorem exp_sub_real (a m : ℝ) : Ideal.exp ((a : EReal) - (m : EReal)) = ((Real.exp (a - m) : ℝ) : EReal) := by
  rw [← EReal.coe_sub, Ideal.exp_coe]

/-- A positive real divided by a positive real sum (spelt 0 + (e₀ + e₁)) is a nonnegative real:
    the divisor is a nonzero real, so the quotient is the product with its reciprocal. -/
theorem div_real (e e0 e1 : ℝ) (he : 0 < e) (h0 : 0 < e0) (h1 : 0 < e1) :
    ∃ r : ℝ, 0 ≤ r ∧ Ideal.div (e : EReal) ((0 : EReal) + ((e0 : EReal) + (e1 : EReal))) = (r : EReal) := by
  have hs : e0 + e1 ≠ 0 := (add_pos h0 h1).ne'
  refine ⟨e * (1 / (e0 + e1)), by positivity, ?_⟩
  rw [zero_add, ← EReal.coe_add, Ideal.div_coe hs, ← EReal.coe_mul]

/-! ## The softmax of two real stack weights -/

/-- A max-reduce, from −∞, of a vector of two reals down to rank 0 is a real: it is the fold of max
    over the indices that reduce to the one result index, and these are all of them. -/
theorem reduce_max_real (x : S2.Idx → EReal) (init : S_.Idx → EReal) (hinit : ∀ j, init j = ⊥)
    (hx : ∀ k, ∃ r : ℝ, x k = (r : EReal)) (j : S_.Idx) :
    ∃ m : ℝ, Host.reduce (FloatOps.maximumf (F := Ideal) (φ := .f32)) x init reducesTo_S2_S_d0 h_S_ j = (m : EReal) := by
  rw [Host.reduce_eq_fold, hinit]
  refine fold_max_real _ ⟨ValueIdx.ix1 (0 : Fin 2), ?_⟩ x hx
  exact Finset.mem_filter.2 ⟨Finset.mem_univ _, funext fun d => d.elim0⟩

/-- The maximum the softmax subtracts (max(−∞, max over the two weights from −∞)) is a real. -/
theorem max_real (a2 : (⟨S2, .f32⟩ : BufTy).Contents (Elt Ideal)) (hfin : ∀ k : S2.Idx, ∃ r : ℝ, a2 k = (r : EReal)) (j : S_.Idx) :
    ∃ m : ℝ, val_main_v177 (F := Ideal) a2 j = (m : EReal) := by
  obtain ⟨m, hm⟩ : ∃ m : ℝ, val_main_v176 (F := Ideal) a2 j = (m : EReal) := by
    unfold val_main_v176
    exact reduce_max_real a2 _ (fun j => neg_inf_f32) hfin j
  refine ⟨m, ?_⟩
  rw [val_main_v177_apply, val_main_cst_55_apply, Ideal.ofBits_def, Ideal.maximumf_def, neg_inf_f32, max_bot_left]
  exact hm

/-- Each exponential exp(aₖ − m) is a positive real. -/
theorem exp_real (a2 : (⟨S2, .f32⟩ : BufTy).Contents (Elt Ideal)) (hfin : ∀ k : S2.Idx, ∃ r : ℝ, a2 k = (r : EReal)) (k : S2.Idx) :
    ∃ e : ℝ, 0 < e ∧ val_main_v181 (F := Ideal) a2 k = (e : EReal) := by
  obtain ⟨r, hr⟩ := hfin k
  obtain ⟨m, hm⟩ := max_real a2 hfin (idx_main_v178 (idx_main_v179 k))
  refine ⟨Real.exp (r - m), Real.exp_pos _, ?_⟩
  rw [val_main_v181_apply, val_main_v180_apply, val_main_v179_apply, val_main_v178_apply, hm, hr,
    Ideal.hostUnary_exp_def, Ideal.subf_def]
  exact exp_sub_real r m

/-- The softmax's denominator is 0 plus the sum of the two exponentials. -/
theorem denom_eq (a2 : (⟨S2, .f32⟩ : BufTy).Contents (Elt Ideal)) (j : S_.Idx) :
    val_main_v182 (F := Ideal) a2 j
      = 0 + (val_main_v181 (F := Ideal) a2 (ValueIdx.ix1 (0 : Fin 2)) + val_main_v181 (F := Ideal) a2 (ValueIdx.ix1 (1 : Fin 2))) := by
  rw [val_main_v182_apply, val_main_cst_56_apply, Ideal.ofBits_def, Ideal.ofBits_zero_f32, sum_idx1_two]

/-- Each softmax weight is a nonnegative real when the two stack weights are real. -/
theorem weights_real (a2 : (⟨S2, .f32⟩ : BufTy).Contents (Elt Ideal)) (hfin : ∀ k : S2.Idx, ∃ r : ℝ, a2 k = (r : EReal)) :
    ∀ k : S2.Idx, ∃ r : ℝ, 0 ≤ r ∧ val_main_v185 (F := Ideal) a2 k = (r : EReal) := by
  intro k
  obtain ⟨e, he, hek⟩ := exp_real a2 hfin k
  obtain ⟨e0, h0, he0⟩ := exp_real a2 hfin (ValueIdx.ix1 (0 : Fin 2))
  obtain ⟨e1, h1, he1⟩ := exp_real a2 hfin (ValueIdx.ix1 (1 : Fin 2))
  obtain ⟨r, hr, hdiv⟩ := div_real e e0 e1 he h0 h1
  refine ⟨r, hr, ?_⟩
  rw [val_main_v185_apply, val_main_v184_apply, val_main_v183_apply, denom_eq, hek, he0, he1, Ideal.hostDivf_def]
  exact hdiv

/-! ## The sum of the two weights, as a host sum from zero -/

/-- The two weights summed by the host's float sum from the zero constant. -/
def weightSum (a2 : (⟨S2, .f32⟩ : BufTy).Contents (Elt Ideal)) : EReal :=
  (Host.reduceAdd (F := Ideal) (val_main_v185 (F := Ideal) a2) (constant (F := Ideal) S_ .f32 0x00000000#32)
    reducesTo_S2_S_d0 h_S_) (fun a => a.elim0)

/-- That sum is 0 + (w₀ + w₁). -/
theorem weightSum_eq (a2 : (⟨S2, .f32⟩ : BufTy).Contents (Elt Ideal)) :
    weightSum a2 = 0 + (val_main_v185 (F := Ideal) a2 (ValueIdx.ix1 (0 : Fin 2)) + val_main_v185 (F := Ideal) a2 (ValueIdx.ix1 (1 : Fin 2))) := by
  unfold weightSum
  generalize val_main_v185 (F := Ideal) a2 = y
  rw [ValueIdx.hostReduceAdd_apply, Ideal.hostReduceAdd_total reducesTo_S2_S_d0 (fun b => b.elim0), ValueIdx.constant_apply,
    Ideal.ofBits_zero_f32, sum_idx1_two]

/-! ## The two weights as the reference reads them (slice, then reshape to rank 0) -/

/-- w₀: entry 0 of the softmax. -/
theorem w0_eq (a2 : (⟨S2, .f32⟩ : BufTy).Contents (Elt Ideal)) (j : S_.Idx) :
    val_main_v188 (F := Ideal) a2 j = val_main_v185 (F := Ideal) a2 (ValueIdx.ix1 (0 : Fin 2)) := by
  have e1 : val_main_v188 (F := Ideal) a2 j = val_main_v187 (F := Ideal) a2 (ValueIdx.ix1 (0 : Fin 1)) := by
    unfold val_main_v188
    generalize val_main_v187 (F := Ideal) a2 = y
    exact shapeCast_apply y shapeCasts_S1_S_ j (ValueIdx.ix1 (0 : Fin 1)) (by
      show (S1.rowMajor (ValueIdx.ix1 (0 : Fin 1))).val = (S_.rowMajor j).val
      have h1 := (S1.rowMajor (ValueIdx.ix1 (0 : Fin 1))).isLt
      have h2 := (S_.rowMajor j).isLt
      have n1 : S1.numel = 1 := by decide
      have n0 : S_.numel = 1 := by decide
      omega)
  rw [e1, val_main_v187_apply]
  exact congrArg _ (funext fun a => match a with | ⟨0, _⟩ => rfl)

/-- w₁: entry 1 of the softmax. -/
theorem w1_eq (a2 : (⟨S2, .f32⟩ : BufTy).Contents (Elt Ideal)) (j : S_.Idx) :
    val_main_v190 (F := Ideal) a2 j = val_main_v185 (F := Ideal) a2 (ValueIdx.ix1 (1 : Fin 2)) := by
  have e1 : val_main_v190 (F := Ideal) a2 j = val_main_v189 (F := Ideal) a2 (ValueIdx.ix1 (0 : Fin 1)) := by
    unfold val_main_v190
    generalize val_main_v189 (F := Ideal) a2 = y
    exact shapeCast_apply y shapeCasts_S1_S_ j (ValueIdx.ix1 (0 : Fin 1)) (by
      show (S1.rowMajor (ValueIdx.ix1 (0 : Fin 1))).val = (S_.rowMajor j).val
      have h1 := (S1.rowMajor (ValueIdx.ix1 (0 : Fin 1))).isLt
      have h2 := (S_.rowMajor j).isLt
      have n1 : S1.numel = 1 := by decide
      have n0 : S_.numel = 1 := by decide
      omega)
  rw [e1, val_main_v189_apply]
  exact congrArg _ (funext fun a => match a with | ⟨0, _⟩ => rfl)

/-! ## One stack's result, and the final equation -/

/-- One stack's result at an index: 0.9·A + 0.1·x, with A the second layer's scatter-add kept closed. -/
theorem stack_apply (a0 : (⟨S100000x64, .f32⟩ : BufTy).Contents (Elt Ideal)) (a1 : (⟨S2x1250000, .i32⟩ : BufTy).Contents (Elt Ideal)) (i : S100000x64.Idx) :
    val_main_v89 (F := Ideal) a0 a1 i
      = Ideal.ofBits .f32 0x3F666666#32 * val_main_v84 (F := Ideal) a0 a1 i + Ideal.ofBits .f32 0x3DCCCCCD#32 * a0 i := by
  rw [val_main_v89_apply, val_main_v86_apply, val_main_v88_apply, val_main_v85_apply, val_main_v87_apply,
    val_main_cst_24_apply, val_main_cst_25_apply]
  rfl

/-- The reference's result: (0 + w₀·S) + w₁·S = (0 + (w₀ + w₁))·S, by distributivity over a sum of two
    nonnegative factors. -/
theorem final_apply (a0 : (⟨S100000x64, .f32⟩ : BufTy).Contents (Elt Ideal)) (a1 : (⟨S2x1250000, .i32⟩ : BufTy).Contents (Elt Ideal)) (a2 : (⟨S2, .f32⟩ : BufTy).Contents (Elt Ideal)) (hfin : ∀ k : S2.Idx, ∃ r : ℝ, a2 k = (r : EReal)) (i : S100000x64.Idx) :
    val_main_v196 (F := Ideal) a0 a1 a2 i
      = weightSum a2 * (Ideal.ofBits .f32 0x3F666666#32 * val_main_v84 (F := Ideal) a0 a1 i + Ideal.ofBits .f32 0x3DCCCCCD#32 * a0 i) := by
  obtain ⟨r0, h0, e0⟩ := weights_real a2 hfin (ValueIdx.ix1 (0 : Fin 2))
  obtain ⟨r1, h1, e1⟩ := weights_real a2 hfin (ValueIdx.ix1 (1 : Fin 2))
  rw [weightSum_eq, val_main_v196_apply, val_main_v193_apply, val_main_v195_apply, val_main_v192_apply,
    val_main_v191_apply, val_main_v194_apply, val_main_v186_apply, val_main_cst_57_apply, w0_eq, w1_eq,
    stack_eq, stack_apply, e0, e1]
  generalize (Ideal.ofBits .f32 0x3F666666#32 * val_main_v84 (F := Ideal) a0 a1 i + Ideal.ofBits .f32 0x3DCCCCCD#32 * a0 i) = s
  simp only [Ideal.addf_def, Ideal.mulf_def, Ideal.ofBits_def, Ideal.ofBits_zero_f32, zero_add]
  exact (EReal.right_distrib_of_nonneg (EReal.coe_nonneg.2 h0) (EReal.coe_nonneg.2 h1)).symm

end Cert.ReferenceIdeal.Final

end
-- ==== Proof.PreFinite.lean ====
import proofs.«145455_j936302871076_1_alg».proof.Pre_finite_inputs
import Idealize.ShloMosaic.Lib.ReduceAll
import Idealize.ShloMosaic.Lib.ValueIdx
import Idealize.ShloMosaic.PureOps.Ideal.Laws

/-!
  The precondition `finite_inputs`, read back at the extended reals.

  The predicate is the conjunction of two "all entries satisfy |v| < +∞" tests, one over the
  node features and one over the two stack weights.  On the extended reals |v| is
  `max v (-v)`, the pattern `0x7F800000` denotes `⊤`, and `max v (-v) < ⊤` fails at both
  `⊤` and `⊥`: so the second test, when it answers 1, says each stack weight is a real number.
-/

namespace Cert.Pre_finite_inputs.Finite

open Idealize.ShloMosaic Cert.Pre_finite_inputs

/-- The rank-0 shape has exactly one index. -/
instance : Subsingleton S_.Idx := ⟨fun a b => funext fun d => d.elim0⟩

/-- The f32 pattern of +∞ denotes the top of the extended reals. -/
theorem inf_f32 : Ideal.ofBits .f32 0x7F800000#32 = (⊤ : EReal) := by
  simp [Ideal.ofBits, Ideal.ieee]

/-- An extended real whose absolute value `max v (-v)` is below `⊤` is a real number:
    at `⊤` the maximum is `⊤`, and at `⊥` the negation is `⊤`. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- When the precondition holds, each of the two stack weights is a real number. -/
theorem weights_finite_of_pre [Facts] (b0 : FVec Ideal S100000x64 .f32) (b1 : IVec S2x1250000 32)
    (b2 : FVec Ideal S2 .f32) (h : fn (F := Ideal) b0 b1 b2 = fun _ => 1#1) :
    ∀ k, ∃ r : ℝ, b2 k = (r : EReal) := by
  intro k
  have h0 := congrFun h ValueIdx.ix0
  dsimp only [fn] at h0
  -- the conjunction of the two tests is 1: so is the second one
  have h1 := (IntOp.andi_eq_one.1 h0).2
  -- a reduction by "and" into the one-index result that is 1 had a 1 at every entry
  have h2 := Host.reduce_andi_all _ _ _ _ _ h1 k
  -- the entry at k compares |b2 k| with the broadcast +∞
  have h3 : Ideal.cmp .olt (max (b2 k) (-(b2 k))) (Ideal.ofBits .f32 0x7F800000#32) = 1#1 := h2
  rw [inf_f32] at h3
  refine real_of_abs_lt_top (b2 k) ?_
  by_contra hn
  simp [Ideal.cmp, hn] at h3
-- ==== Proof.lean ====
/-
  The certificate of the graph-propagation kernel against its jnp reference, over the extended reals.

  Both programs compute, per layer, `cur := 0.9 · P(cur) + 0.1 · x`, where `P` gathers one row of the node table per
  edge, multiplies it by the edge's factor (the product of its two ends' inverse square-root degrees) and adds the
  rows up per destination node. The reference does this for two identical stacks and returns
  `0 + w₀ · S + w₁ · S`, `w` the softmax of the stack weights and `S` a stack's result; the kernel computes one stack
  and multiplies it by `0 + w₀ + w₁` inside its last pass. The gather, the sum per node, the factor and the softmax
  are the same host operations on both sides; the kernel's two rectangular passes are whole-array functions that
  meet the reference's products and mixes entry by entry. What joins the two results is distributivity,
  `(w₀ + w₁) · S = w₀ · S + w₁ · S`, which holds on the extended reals for nonnegative `w₀`, `w₁`: the softmax of
  finite weights is a pair of nonnegative reals, and that is where the precondition is used.
-/
import proofs.«145455_j936302871076_1_alg».proof.Defs
import proofs.«145455_j936302871076_1_alg».proof.Proof.Gen.Kernel
import proofs.«145455_j936302871076_1_alg».proof.Proof.Gen.Kernel.Skeleton
import proofs.«145455_j936302871076_1_alg».proof.Proof.Gen.Kernel.Launch
import proofs.«145455_j936302871076_1_alg».proof.Proof.Gen.Kernel.Points
import proofs.«145455_j936302871076_1_alg».proof.Proof.Gen.Kernel.Frame
import proofs.«145455_j936302871076_1_alg».proof.Proof.Gen.KernelIdeal
import proofs.«145455_j936302871076_1_alg».proof.Proof.Gen.KernelIdeal.Skeleton
import proofs.«145455_j936302871076_1_alg».proof.Proof.Gen.KernelIdeal.Launch
import proofs.«145455_j936302871076_1_alg».proof.Proof.Gen.KernelIdeal.Points
import proofs.«145455_j936302871076_1_alg».proof.Proof.Gen.KernelIdeal.Frame
import proofs.«145455_j936302871076_1_alg».proof.Proof.Gen.ReferenceIdeal
import proofs.«145455_j936302871076_1_alg».proof.Proof.Gen.Pre_finite_inputs
import proofs.«145455_j936302871076_1_alg».proof.Proof.KernelRun
import proofs.«145455_j936302871076_1_alg».proof.Proof.Layers
import proofs.«145455_j936302871076_1_alg».proof.Proof.RefRun
import proofs.«145455_j936302871076_1_alg».proof.Proof.RefRead
import proofs.«145455_j936302871076_1_alg».proof.Proof.RefFinal
import proofs.«145455_j936302871076_1_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The sum of the softmax weights is the one entry of the [1, 1] array the last pass is scaled by. -/
theorem scale_entry (a2 : (⟨Cert.ReferenceIdeal.S2, .f32⟩ : BufTy).Contents (Elt Ideal)) :
    Cert.ReferenceIdeal.Final.weightSum a2
      = shapeCast Cert.KernelIdeal.S1x1 (Host.reduceAdd (Cert.ReferenceIdeal.ReadP.val_main_v185 (F := Ideal) a2) (constant (F := Ideal) Cert.KernelIdeal.S_ .f32 0x00000000#32)
          Cert.KernelIdeal.Gen.reducesTo_S2_S_d0 Cert.KernelIdeal.Gen.h_S_) Cert.KernelIdeal.Gen.shapeCasts_S_S1x1 Cert.KernelIdeal.Spec.origin11 := by
  unfold Cert.ReferenceIdeal.Final.weightSum
  refine (shapeCast_apply _ Cert.KernelIdeal.Gen.shapeCasts_S_S1x1 Cert.KernelIdeal.Spec.origin11 (fun a => a.elim0) ?_).symm
  have h0 : (Cert.KernelIdeal.S_.rowMajor (fun a => a.elim0)).val < 1 := (Cert.KernelIdeal.S_.rowMajor (fun a => a.elim0)).isLt
  have h1 : (Cert.KernelIdeal.S1x1.rowMajor Cert.KernelIdeal.Spec.origin11).val < 1 := (Cert.KernelIdeal.S1x1.rowMajor Cert.KernelIdeal.Spec.origin11).isLt
  omega

/-- From memories agreeing on the arguments the two idealized programs end with the same result array: the
    kernel's last pass at an entry is `(0 + w₀ + w₁) · (0.9 · A + 0.1 · x)`, `A` the second layer's sum per node,
    and the reference's last stage is the same by distributivity over the two nonnegative real weights. -/
theorem algebraic : Cert.algebraic_KernelIdeal_ReferenceIdeal := by
  intro m ρ m' ρ' hpre hagree
  refine ⟨fun c => Cert.KernelIdeal.Gen.W10 m ρ c (Proc.devRef .tc Cert.KernelIdeal.main_v67), Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v196 m' c = Cert.KernelIdeal.Gen.W10 m ρ c (Proc.devRef .tc Cert.KernelIdeal.main_v67)
  have hfin := Cert.Pre_finite_inputs.Finite.weights_finite_of_pre _ _ _ (hpre c)
  rw [Cert.ReferenceIdeal.ReadP.val_main_v196_eq, (hagree c).1, (hagree c).2.1, (hagree c).2.2, Cert.KernelIdeal.Layers.result]
  funext i
  rw [Cert.ReferenceIdeal.Final.final_apply _ _ _ hfin i, scale_entry]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
